-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x512 : Shape := ⟨2, ![5000, 512]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x16, .f32⟩
  | .hbm, ⟨75, _⟩ => ⟨S1700000x1, .f32⟩
  | .hbm, ⟨76, _⟩ => ⟨S1700000x16, .f32⟩
  | .hbm, ⟨77, _⟩ => ⟨S1700000x16, .f32⟩
  | .hbm, ⟨78, _⟩ => ⟨S_, .f32⟩
  | .hbm, ⟨79, _⟩ => ⟨S100000x16, .f32⟩
  | .hbm, ⟨80, _⟩ => ⟨S1700000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x64_S5000x64_1_0_0_1_n_n_wf : DotDims.WF S5000x512 S512x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x16, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x1, .f32⟩
  | .hbm, ⟨80, _⟩ => ⟨S1700000x16, .f32⟩
  | .hbm, ⟨81, _⟩ => ⟨S1700000x16, .f32⟩
  | .hbm, ⟨82, _⟩ => ⟨S_, .f32⟩
  | .hbm, ⟨83, _⟩ => ⟨S100000x16, .f32⟩
  | .hbm, ⟨84, _⟩ => ⟨S1700000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x16, .f32⟩
  | .hbm, ⟨96, _⟩ => ⟨S100000x16, .f32⟩
  | .hbm, ⟨97, _⟩ => ⟨S100000x16, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x16, .f32⟩
  | .hbm, ⟨103, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.RunOut.lean ====
/-
  The idealized kernel's run with its result named.

  The program is four kernel regions among stretches of host operations. Its run from any memory ends, on every core,
  with every buffer the program names at the contents the last region leaves (the fold of the host stretches and of the
  regions' write-backs over the launch memory); in particular the result buffer holds that fold's value at the result,
  and the six argument arrays hold what they held at launch.
-/
import proofs.«102561_j3453153706769_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds the last
    boundary's contents at the result, and each argument array is as launched. -/
theorem run_out : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunOut

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.LibRowMax.lean ====
/-
  The maximum along the lanes of a row, read at an index, at the exact values.

  A lane maximum of an [a, b] array started from the word of minus infinity is, at row p, the fold of `max` from that word's value
  over the row's b entries; the host's one-operand reduce with a maximum body over the same axis is the same fold from
  its initial value. Both forms are stated over `Fin b` with the entries named by their coordinates, so a row-wise
  normalization on a block of rows and on the whole array meet in one expression.
-/
import Idealize.ShloMosaic.Lib.ValueIdx
import Idealize.ShloMosaic.PureOps.Ideal.Laws
import Idealize.ShloMosaic.PureOps.Reduce

noncomputable section

namespace Cert.LibRowMax

open Idealize.ShloMosaic Idealize.ShloMosaic.ValueIdx

/-- The inserted index of a lane reduction of an [a, b] array at row p and lane k is (p, k). -/
theorem lift_row {a b : ℕ} (h : (⟨2, ![a, b]⟩ : Shape).Reduces [1] ⟨1, ![a]⟩) (p : Fin a) (k : Fin b) :
    h.lift (ix1 p) k = ix2 p k :=
  funext fun c => by
    match c with
    | ⟨0, _⟩ => exact Fin.ext rfl
    | ⟨1, _⟩ => exact Fin.ext rfl

/-- The lane maximum of an `[a, b]` array started from the word of minus infinity, at row `p`: the fold of `max`
    over the row's entries from that word's value. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · Finset.univ) (funext fun k => congrArg src (lift_row h p k)))

/-- The host's reduce with a maximum body over the lanes of an `[a, b]` array, at row `p`: the fold of `max`
    over the row's entries from the initial value. -/
theorem hostMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) :=
  (Host.reduce_eq_fold_single (FloatOps.maximumf (F := Ideal) (φ := .f32)) x init h' h hu (ix1 p)).trans
    (congrArg (Finset.fold max (init (Shape.Idx.first hu)) · Finset.univ) (funext fun k => congrArg x (lift_row h p k)))

end Cert.LibRowMax

end
-- ==== Proof.RowSpec.lean ====
/-
  A row-wise log-softmax, as a function of one row of extended reals.

  For a row z of n entries: its largest entry is the fold of max over the entries, started from minus infinity (so the
  empty row has the value minus infinity); the entry at lane q of the log-softmax is the shifted entry z q - max z less
  the logarithm of the sum of the exponentials of all the shifted entries. Taking the maximum once more against minus
  infinity changes nothing.
-/
import Idealize.ShloMosaic.PureOps.Ideal.Laws
import Mathlib.Data.Finset.Fold

noncomputable section

namespace Cert.RowSpec

open Idealize.ShloMosaic
open scoped BigOperators

/-- The largest entry of a row: the fold of max over its entries from the value of minus infinity's word. -/
def rowMax {n : ℕ} (z : Fin n → EReal) : EReal :=
  (Finset.univ : Finset (Fin n)).fold max (Ideal.ofBits .f32 0xFF800000#32) z

/-- Lane q of the log-softmax of the row z: (z q - max z) - log (Σ_k exp (z k - max z)). -/
def rowLogSoftmax {n : ℕ} (z : Fin n → EReal) (q : Fin n) : EReal :=
  (z q - rowMax z) - Ideal.log (∑ k : Fin n, Ideal.exp (z k - rowMax z))

/-- The fold already starts from minus infinity's value, so a further maximum against it is the fold itself. -/
theorem max_bot_rowMax {n : ℕ} (z : Fin n → EReal) : max (Ideal.ofBits .f32 0xFF800000#32) (rowMax z) = rowMax z :=
  max_eq_right ((Finset.le_fold_max _).mpr (Or.inl le_rfl))

end Cert.RowSpec

end
-- ==== Proof.Payloads.lean ====
/-
  What each of the four kernel bodies stores, read at one entry of its block, at the exact values.

  On a block of 5000 rows: the first and third bodies store the product of the block with a whole weight matrix, whose
  entry (p, q) is the sum over k of block[p, k] * weight[k, q] (rounding the operands to a narrower format is the identity
  here, and the accumulator starts at zero); the second stores max (block[p, q] + bias[0, q], 0); the fourth stores the
  row-wise log-softmax of block[p, ·] + bias[0, ·].
-/
import proofs.«102561_j3453153706769_1_alg».proof.Proof.Gen.KernelIdeal.Skeleton
import proofs.«102561_j3453153706769_1_alg».proof.Proof.LibMatmulRead
import proofs.«102561_j3453153706769_1_alg».proof.Proof.LibKeepdims
import proofs.«102561_j3453153706769_1_alg».proof.Proof.LibRowMax
import proofs.«102561_j3453153706769_1_alg».proof.Proof.RowSpec
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen Cert.RowSpec
open scoped BigOperators

/-- The first product's dimension numbers are the rows-by-columns ones. -/
theorem rbc0 : MatmulRead.RowsByCols dot_S5000x512_S512x64_S5000x64_1_0_0_1_n_n := ⟨rfl, rfl, rfl, rfl, rfl, rfl⟩
/-- The second product's dimension numbers are the rows-by-columns ones. -/
theorem rbc2 : MatmulRead.RowsByCols dot_S5000x64_S64x16_S5000x16_1_0_0_1_n_n := ⟨rfl, rfl, rfl, rfl, rfl, rfl⟩

/-- Entry (p, q) of the first body's store: Σ_k block[p, k] * weight[k, q]. -/
theorem pay0_apply (x0 : Vec Ideal S5000x512 .f32) (x1 : Vec Ideal S512x64 .f32) (p : Fin 5000) (q : Fin 64) :
    k0_pay1 (F := Ideal) x0 x1 (ix2 p q) = ∑ k : Fin 512, x0 (ix2 p k) * x1 (ix2 k q) := by
  unfold k0_pay1
  exact MatmulRead.matmul_zero_ix2 rbc0 rfl rfl none _ _ p q

/-- Entry (p, q) of the second body's store: max (block[p, q] + bias[0, q], 0). -/
theorem pay1_apply (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, shapeCast_self, shapeCast_self, broadcastTo_1b_ab_apply, broadcast_apply]
  rfl

/-- Entry (p, q) of the third body's store: Σ_k block[p, k] * weight[k, q]. -/
theorem pay2_apply (x0 : Vec Ideal S5000x64 .f32) (x1 : Vec Ideal S64x16 .f32) (p : Fin 5000) (q : Fin 16) :
    k2_pay1 (F := Ideal) x0 x1 (ix2 p q) = ∑ k : Fin 64, x0 (ix2 p k) * x1 (ix2 k q) := by
  unfold k2_pay1
  rw [shapeCast_self]
  exact MatmulRead.matmul_zero_ix2 rbc2 rfl rfl none _ _ p q

/-- The biased block of the fourth body at (p, q). -/
theorem biased3_apply (x0 : Vec Ideal S5000x16 .f32) (x1 : Vec Ideal S1x16 .f32) (p : Fin 5000) (q : Fin 16) :
    addf (F := Ideal) (φ := .f32) (shapeCast S5000x16 x0 shapeCasts_S5000x16_S5000x16)
      (broadcastTo S5000x16 (shapeCast S1x16 x1 shapeCasts_S1x16_S1x16) broadcasts_S1x16_S5000x16) (ix2 p q)
      = x0 (ix2 p q) + x1 (ix2 (0 : Fin 1) q) := by
  rw [addf_apply, shapeCast_self, shapeCast_self, broadcastTo_1b_ab_apply]

/-- Entry (p, q) of the fourth body's store: the log-softmax of the biased row p at lane q. -/
theorem pay3_apply (x0 : Vec Ideal S5000x16 .f32) (x1 : Vec Ideal S1x16 .f32) (p : Fin 5000) (q : Fin 16) :
    k3_pay1 (F := Ideal) x0 x1 (ix2 p q) = rowLogSoftmax (fun k => x0 (ix2 p k) + x1 (ix2 (0 : Fin 1) k)) q := by
  unfold k3_pay1
  generalize hz : addf (F := Ideal) (φ := .f32) (shapeCast S5000x16 x0 shapeCasts_S5000x16_S5000x16)
      (broadcastTo S5000x16 (shapeCast S1x16 x1 shapeCasts_S1x16_S1x16) broadcasts_S1x16_S5000x16) = z
  have hzv : ∀ k : Fin 16, z (ix2 p k) = x0 (ix2 p k) + x1 (ix2 (0 : Fin 1) k) := fun k => by
    rw [← hz]; exact biased3_apply x0 x1 p k
  have hmax : multiReduction .maximumf [1] S5000 z 0xFF800000#32 reduces_S5000x16_S5000 (.inl rfl) rfl (ix1 p)
      = rowMax (fun k => x0 (ix2 p k) + x1 (ix2 (0 : Fin 1) k)) := by
    rw [LibRowMax.laneMax_apply]
    unfold rowMax
    exact congrArg (Finset.fold max (Ideal.ofBits .f32 0xFF800000#32) · Finset.univ) (funext hzv)
  generalize hM : multiReduction .maximumf [1] S5000 z 0xFF800000#32 reduces_S5000x16_S5000 (.inl rfl) rfl = M at hmax ⊢
  generalize hs : subf z (broadcastTo S5000x16 (shapeCast S5000x1 M shapeCasts_S5000_S5000x1) broadcasts_S5000x1_S5000x16) = s
  have hsv : ∀ k : Fin 16, s (ix2 p k)
      = (x0 (ix2 p k) + x1 (ix2 (0 : Fin 1) k)) - rowMax (fun k => x0 (ix2 p k) + x1 (ix2 (0 : Fin 1) k)) := fun k => by
    rw [← hs, subf_apply, LibKeepdims.broadcastTo_a1_ab_apply, LibKeepdims.shapeCast_a_a1_apply, hmax, hzv]
  unfold rowLogSoftmax
  rw [subf_apply, hsv, LibKeepdims.broadcastTo_a1_ab_apply]
  congr 1
  show Ideal.log (shapeCast S5000x1 (multiReduction .add [1] S5000 (exp s) 0x00000000#32 reduces_S5000x16_S5000 (.inl rfl) rfl)
    shapeCasts_S5000_S5000x1 (ix2 p (0 : Fin 1))) = _
  rw [LibKeepdims.shapeCast_a_a1_apply, LibKeepdims.laneSum_apply]
  refine congrArg Ideal.log (Finset.sum_congr rfl fun k _ => ?_)
  show Ideal.exp (s (ix2 p k)) = _
  rw [hsv]

end Cert.KernelIdeal.Payloads

end
-- ==== Proof.Region0.lean ====
/-
  The first kernel region: a [100000, 512] array times a [512, 64] weight matrix, written 5000 rows at a time.

  Grid point t reads rows 5000 t … 5000 t + 4999 of the left array and the whole weight matrix, and writes the product
  of the two as rows 5000 t … 5000 t + 4999 of the result. The 20 row blocks tile the result, and entry (r, q) of a
  block's product only reads row r of the left array, so after the region the result array is the product of the two
  whole arrays: entry (r, q) is the sum over k of left[r, k] * weight[k, q].
-/
import proofs.«102561_j3453153706769_1_alg».proof.Proof.Gen.KernelIdeal.Frame
import proofs.«102561_j3453153706769_1_alg».proof.Proof.Payloads
import Idealize.ShloMosaic.Lib.Pipeline.Value

set_option maxRecDepth 16384

noncomputable section

namespace Cert.KernelIdeal.Region0

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)
open scoped BigOperators

/-- The block offsets of the body's whole-block accesses are all zero. -/
theorem hz : (![0, 0] : Fin 2 → Nat) = fun _ => 0 := funext fun a => by fin_cases a <;> rfl

/-- The product of a [100000, 512] array with a [512, 64] array, entry by entry. -/
def prod (a0 : S100000x512.Idx → EReal) (a1 : S512x64.Idx → EReal) : S100000x64.Idx → EReal :=
  fun i => ∑ k : Fin 512, a0 (ix2 (i 0) k) * a1 (ix2 k (i 1))

/-- Entry j of the body's store, for any index j of the block. -/
theorem pay_at (x0 : Vec Ideal S5000x512 .f32) (x1 : Vec Ideal S512x64 .f32) (j : S5000x64.Idx) :
    k0_pay1 (F := Ideal) x0 x1 j = ∑ k : Fin 512, x0 (ix2 (j 0) k) * x1 (ix2 k (j 1)) := by
  obtain ⟨p, q, rfl⟩ : ∃ (p : Fin 5000) (q : Fin 64), j = ix2 p q := ⟨j 0, j 1, eq_ix2 j⟩
  exact pay0_apply x0 x1 p q

/-- The index maps over the grid: the left array's row block moves with the result's, every other block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What point t writes back is block t of the product of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨e0, e1, e2, e3, e4⟩ := idx_facts t
  funext j
  refine (pay_at (iblk0 V c 0 t) (iblk0 V c 1 t) j).trans ?_
  change _ = prod (V c main_arg0) (V c main_arg2) (((cfg0.win 2).blk t).view.emb j)
  unfold prod
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega
  exact congrArg₂ (fun x y : EReal => x * y) (congrArg (V c main_arg0) h0) (congrArg (V c main_arg2) h1)

/-- An index of the result is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the result is in the block of the point that holds its row: row r is in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the product of the two arrays as the region finds them. -/
theorem final (c : Dev nD) : (dat0 V c).arrAt 2 cfg0.N = prod (V c main_arg0) (V c main_arg2) :=
  (dat0 V c).arrAt_eq_of_cover 2 _ (fun t _ => flushed_eq V c t) (fun i => cover i)

end Cert.KernelIdeal.Region0

end
-- ==== Proof.Region1.lean ====
/-
  The second kernel region: bias and rectifier on a [100000, 64] array, 5000 rows at a time.

  Grid point t reads rows 5000 t … 5000 t + 4999 of the aggregated array and the whole bias row [1, 64], and writes
  max (row entry + bias entry of the same lane, 0) as the same rows of the result. The 20 row blocks tile the result, and
  the body is pointwise in the row, so after the region entry (r, q) of the result is max (a[r, q] + b[0, q], 0).
-/
import proofs.«102561_j3453153706769_1_alg».proof.Proof.Gen.KernelIdeal.Frame
import proofs.«102561_j3453153706769_1_alg».proof.Proof.Payloads
import Idealize.ShloMosaic.Lib.Pipeline.Value

set_option maxRecDepth 16384

noncomputable section

namespace Cert.KernelIdeal.Region1

open Cert.KernelIdeal Cert.KernelIdeal.Gen Cert.KernelIdeal.Payloads Cert.RowSpec
open Idealize.ShloMosaic Idealize.ShloMosaic.TcCoe Idealize.ShloMosaic.ValueIdx Idealize.SL.Sem
open Idealize.ShloMosaic.Pipeline (Dat Cfg Window)
open scoped BigOperators

/-- The block offsets of the body's whole-block accesses are all zero. -/
theorem hz : (![0, 0] : Fin 2 → Nat) = fun _ => 0 := funext fun a => by fin_cases a <;> rfl

/-- Bias, then the rectifier, entry by entry. -/
def biasRelu (a : S100000x64.Idx → EReal) (b : S1x64.Idx → EReal) : S100000x64.Idx → EReal :=
  fun i => max (a i + b (ix2 (0 : Fin 1) (i 1))) (Ideal.ofBits .f32 0x00000000#32)

/-- Entry j of the body's store, for any index j of the block. -/
theorem pay_at (x0 : Vec Ideal S5000x64 .f32) (x1 : Vec Ideal S1x64 .f32) (j : S5000x64.Idx) :
    k1_pay1 (F := Ideal) x0 x1 j = max (x0 j + x1 (ix2 (0 : Fin 1) (j 1))) (Ideal.ofBits .f32 0x00000000#32) := by
  obtain ⟨p, q, rfl⟩ : ∃ (p : Fin 5000) (q : Fin 64), j = ix2 p q := ⟨j 0, j 1, eq_ix2 j⟩
  exact pay1_apply x0 x1 p q

/-- The index maps over the grid: the first input's row block moves with the result's, every other block index is 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every row block of the result is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

variable (V : (c : Dev nD) → (b : Ref sig .tc) → Buf (Elt Ideal) ((c : Thread nD τ).loc b))

/-- What point t writes back is block t of the biased, rectified array as the region finds its inputs. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4⟩ := idx_facts t
  funext j
  refine (pay_at (iblk1 V c 0 t) (iblk1 V c 1 t) j).trans ?_
  change _ = biasRelu (V c main_v43) (V c main_v44) (((cfg1.win 2).blk t).view.emb j)
  unfold biasRelu
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact congrArg₂ (fun x y : EReal => max (x + y) (Ideal.ofBits .f32 0x00000000#32)) (congrArg (V c main_v43) h0) (congrArg (V c main_v44) h1)

/-- An index of the result is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every index of the result is in the block of the point that holds its row: row r is in block r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region: that function of the two arrays as the region finds them. -/
theorem final (c : Dev nD) : (dat1 V c).arrAt 2 cfg1.N = biasRelu (V c main_v43) (V c main_v44) :=
  (dat1 V c).arrAt_eq_of_cover 2 _ (fun t _ => flushed_eq V c t) (fun i => cover i)

end Cert.KernelIdeal.Region1

end
-- ==== Proof.Region2.lean ====
/-
  The third kernel region: a [100000, 64] array times a [64, 16] weight matrix, written 5000 rows at a time.

  Grid point t reads rows 5000 t … 5000 t + 4999 of the left array and the whole weight matrix, and writes the product
  of the two as the same rows of the result. The 20 row blocks tile the result, and entry (r, q) of a block's product only
  reads row r of the left array, so after the region entry (r, q) of the result is the sum over k of left[r, k] * weight[k, q].
-/
import proofs.«102561_j3453153706769_1_alg».proof.Proof.Gen.KernelIdeal.Frame
import proofs.«102561_j3453153706769_1_alg».proof.Proof.Payloads
import Idealize.ShloMosaic.Lib.Pipeline.Value

set_option maxRecDepth 16384

noncomputable section

namespace Cert.KernelIdeal.Region2

open Cert.KernelIdeal Cert.KernelIdeal.Gen Cert.KernelIdeal.Payloads Cert.RowSpec
open Idealize.ShloMosaic Idealize.ShloMosaic.TcCoe Idealize.ShloMosaic.ValueIdx Idealize.SL.Sem
open Idealize.ShloMosaic.Pipeline (Dat Cfg Window)
open scoped BigOperators

/-- The block offsets of the body's whole-block accesses are all zero. -/
theorem hz : (![0, 0] : Fin 2 → Nat) = fun _ => 0 := funext fun a => by fin_cases a <;> rfl

/-- The product of a [100000, 64] array with a [64, 16] array, entry by entry. -/
def prod (a0 : S100000x64.Idx → EReal) (a1 : S64x16.Idx → EReal) : S100000x16.Idx → EReal :=
  fun i => ∑ k : Fin 64, a0 (ix2 (i 0) k) * a1 (ix2 k (i 1))

/-- Entry j of the body's store, for any index j of the block. -/
theorem pay_at (x0 : Vec Ideal S5000x64 .f32) (x1 : Vec Ideal S64x16 .f32) (j : S5000x16.Idx) :
    k2_pay1 (F := Ideal) x0 x1 j = ∑ k : Fin 64, x0 (ix2 (j 0) k) * x1 (ix2 k (j 1)) := by
  obtain ⟨p, q, rfl⟩ : ∃ (p : Fin 5000) (q : Fin 16), j = ix2 p q := ⟨j 0, j 1, eq_ix2 j⟩
  exact pay2_apply x0 x1 p q

/-- The index maps over the grid: the first input's row block moves with the result's, every other block index is 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block of the result is some point's. -/
theorem idx_onto : ∀ q0 : Fin 20, ∃ t : Fin cfg2.N, win2_2.index t = ![q0.val, 0] :=
  (by decide +kernel : ∀ q0 : Fin 20, ∃ t : Fin grid2.N, win2_2.index t = ![q0.val, 0])

variable (V : (c : Dev nD) → (b : Ref sig .tc) → Buf (Elt Ideal) ((c : Thread nD τ).loc b))

/-- What point t writes back is block t of the product of the two arrays as the region finds them. -/
theorem flushed_eq (c : Dev nD) (t : Fin cfg2.N) :
    (dat2 V c).flushed 2 t = ((cfg2.win 2).blk t).view.read (Elt Ideal) (prod (V c main_v45) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x16) hz]
  obtain ⟨e0, e1, e2, e3, e4⟩ := idx_facts t
  funext j
  refine (pay_at (iblk2 V c 0 t) (iblk2 V c 1 t) j).trans ?_
  change _ = prod (V c main_v45) (V c main_arg4) (((cfg2.win 2).blk t).view.emb j)
  unfold prod
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 16 + 1 * (j 1).val = win2_2.index t (1 : Fin 2) * 16 + 1 * (j 1).val; omega
  exact congrArg₂ (fun x y : EReal => x * y) (congrArg (V c main_v45) h0) (congrArg (V c main_arg4) h1)

/-- An index of the result is in point t's block iff each coordinate is in the block's range on its axis. -/
theorem mem_blk (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v46).slice (win2_2.rect t)).set ↔ _
  rw [View.set_slice_whole, Rect.mem_set_unit]
  exact Iff.rfl

/-- Every index of the result is in the block of the point that holds its row: row r is in block r / 5000. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The result array after the region: that function of the two arrays as the region finds them. -/
theorem final (c : Dev nD) : (dat2 V c).arrAt 2 cfg2.N = prod (V c main_v45) (V c main_arg4) :=
  (dat2 V c).arrAt_eq_of_cover 2 _ (fun t _ => flushed_eq V c t) (fun i => cover i)

end Cert.KernelIdeal.Region2

end
-- ==== Proof.Region3.lean ====
/-
  The fourth kernel region: bias and row-wise log-softmax on a [100000, 16] array, 5000 rows at a time.

  Grid point t reads rows 5000 t … 5000 t + 4999 of the aggregated array and the whole bias row [1, 16], and writes the
  log-softmax of each biased row as the same rows of the result. A row's log-softmax reads that row only, and the 20 row
  blocks tile the result, so after the region row r of the result is the log-softmax of a[r, ·] + b[0, ·].
-/
import proofs.«102561_j3453153706769_1_alg».proof.Proof.Gen.KernelIdeal.Frame
import proofs.«102561_j3453153706769_1_alg».proof.Proof.Payloads
import Idealize.ShloMosaic.Lib.Pipeline.Value

set_option maxRecDepth 16384

noncomputable section

namespace Cert.KernelIdeal.Region3

open Cert.KernelIdeal Cert.KernelIdeal.Gen Cert.KernelIdeal.Payloads Cert.RowSpec
open Idealize.ShloMosaic Idealize.ShloMosaic.TcCoe Idealize.ShloMosaic.ValueIdx Idealize.SL.Sem
open Idealize.ShloMosaic.Pipeline (Dat Cfg Window)
open scoped BigOperators

/-- The block offsets of the body's whole-block accesses are all zero. -/
theorem hz : (![0, 0] : Fin 2 → Nat) = fun _ => 0 := funext fun a => by fin_cases a <;> rfl

/-- Bias, then the log-softmax of each row. -/
def biasLogSoftmax (a : S100000x16.Idx → EReal) (b : S1x16.Idx → EReal) : S100000x16.Idx → EReal :=
  fun i => rowLogSoftmax (fun k : Fin 16 => a (ix2 (i 0) k) + b (ix2 (0 : Fin 1) k)) (i 1)

/-- Entry j of the body's store, for any index j of the block. -/
theorem pay_at (x0 : Vec Ideal S5000x16 .f32) (x1 : Vec Ideal S1x16 .f32) (j : S5000x16.Idx) :
    k3_pay1 (F := Ideal) x0 x1 j = rowLogSoftmax (fun k : Fin 16 => x0 (ix2 (j 0) k) + x1 (ix2 (0 : Fin 1) k)) (j 1) := by
  obtain ⟨p, q, rfl⟩ : ∃ (p : Fin 5000) (q : Fin 16), j = ix2 p q := ⟨j 0, j 1, eq_ix2 j⟩
  exact pay3_apply x0 x1 p q

/-- The index maps over the grid: the first input's row block moves with the result's, every other block index is 0. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every row block of the result is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

variable (V : (c : Dev nD) → (b : Ref sig .tc) → Buf (Elt Ideal) ((c : Thread nD τ).loc b))

/-- What point t writes back is block t of the biased array's row-wise log-softmax, as the region finds its inputs. -/
theorem flushed_eq (c : Dev nD) (t : Fin cfg3.N) :
    (dat3 V c).flushed 2 t = ((cfg3.win 2).blk t).view.read (Elt Ideal) (biasLogSoftmax (V c main_v59) (V c main_v60)) := by
  show (cfg3.win 2).cut (grid3.coords t) ((dat3 V c).after 2 t) = _
  rw [after3_2]
  unfold out3_2
  rw [View.canon_unit_zero hz]
  simp only [View.ld_unit_zero (S := S5000x16) hz, View.ld_unit_zero (S := S1x16) hz]
  obtain ⟨e0, e1, e2, e3, e4⟩ := idx_facts t
  funext j
  refine (pay_at (iblk3 V c 0 t) (iblk3 V c 1 t) j).trans ?_
  change _ = biasLogSoftmax (V c main_v59) (V c main_v60) (((cfg3.win 2).blk t).view.emb j)
  unfold biasLogSoftmax
  have h0 : ∀ k : Fin 16, ((cfg3.win 0).blk t).view.emb (ix2 (j 0) k) = ix2 ((((cfg3.win 2).blk t).view.emb j) 0) k := fun k => by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * k.val = k.val; omega
  have h1 : ∀ k : Fin 16, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 16 + 1 * k.val = k.val; omega
  have hq : (⟨(j 1).val, (j 1).isLt⟩ : Fin 16) = ⟨((((cfg3.win 2).blk t).view.emb j) 1).val, ((((cfg3.win 2).blk t).view.emb j) 1).isLt⟩ := by
    apply Fin.ext
    show (j 1).val = win3_2.index t (1 : Fin 2) * 16 + 1 * (j 1).val
    omega
  exact congrArg₂ (rowLogSoftmax (n := 16))
    (funext fun k => congrArg₂ (fun x y : EReal => x + y) (congrArg (V c main_v59) (h0 k)) (congrArg (V c main_v60) (h1 k))) hq

/-- An index of the result is in point t's block iff each coordinate is in the block's range on its axis. -/
theorem mem_blk (t : Fin cfg3.N) (i : S100000x16.Idx) :
    i ∈ ((cfg3.win 2).blk t).view.set ↔ ∀ a : Fin 2, win3_2.index t a * S5000x16.size a ≤ (i a).val ∧ (i a).val < win3_2.index t a * S5000x16.size a + S5000x16.size a := by
  show i ∈ ((View.whole main_v61).slice (win3_2.rect t)).set ↔ _
  rw [View.set_slice_whole, Rect.mem_set_unit]
  exact Iff.rfl

/-- Every index of the result is in the block of the point that holds its row: row r is in block r / 5000. -/
theorem cover (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 16 ≤ (i 1).val ∧ (i 1).val < win3_2.index t (1 : Fin 2) * 16 + 16; omega

/-- The result array after the region: that function of the two arrays as the region finds them. -/
theorem final (c : Dev nD) : (dat3 V c).arrAt 2 cfg3.N = biasLogSoftmax (V c main_v59) (V c main_v60) :=
  (dat3 V c).arrAt_eq_of_cover 2 _ (fun t _ => flushed_eq V c t) (fun i => cover i)

end Cert.KernelIdeal.Region3

end
-- ==== Proof.RefSoftmax.lean ====
/-
  The reference's row-wise log-softmax, read at an entry.

  The last fifteen operations of the reference take the biased second-layer array z [100000, 16] to: the row maximum
  (a reduce with a maximum body started from minus infinity, then one more maximum against minus infinity); the shifted
  array z - max; its exponential; the row sums of the exponentials (a sum started from zero); their logarithm; and the
  shifted array less that logarithm. Read at entry (r, q) this is the log-softmax of row r of z at lane q.
-/
import proofs.«102561_j3453153706769_1_alg».proof.Proof.RefReadP
import proofs.«102561_j3453153706769_1_alg».proof.Proof.LibRowMax
import proofs.«102561_j3453153706769_1_alg».proof.Proof.RowSpec
import Idealize.ShloMosaic.Lib.ValueIdx

noncomputable section

namespace Cert.ReferenceIdeal.RefSoftmax

open Cert.ReferenceIdeal Cert.ReferenceIdeal.Gen Cert.ReferenceIdeal.Read Cert.RowSpec
open Idealize.ShloMosaic Idealize.ShloMosaic.ValueIdx
open scoped BigOperators

variable (x0 : (⟨S100000x512, .f32⟩ : BufTy).Contents (Elt Ideal)) (x1 : (⟨S2x1600000, .i32⟩ : BufTy).Contents (Elt Ideal))
  (x2 : (⟨S512x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-- The row maximum the reference subtracts, at row r: the largest entry of row r of the biased array. -/
theorem rowmax_apply (r : Fin 100000) :
    val_main_call2_v2 (F := Ideal) x0 x1 x2 x3 x4 x5 (ix1 r)
      = rowMax (fun k : Fin 16 => val_main_v64 (F := Ideal) x0 x1 x2 x3 x4 x5 (ix2 r k)) := by
  rw [val_main_call2_v2_apply, val_main_call2_v1_apply, val_main_call2_cst_0_apply]
  unfold val_main_call2_v0
  rw [LibRowMax.hostMax_apply _ _ reducesTo_S100000x16_S100000_d1 (by decide) h_S_ r]
  exact max_bot_rowMax _

/-- The shifted array at (r, k): the biased entry less its row's maximum. -/
theorem shifted_apply (r : Fin 100000) (k : Fin 16) :
    val_main_call2_v5 (F := Ideal) x0 x1 x2 x3 x4 x5 (ix2 r k)
      = val_main_v64 (F := Ideal) x0 x1 x2 x3 x4 x5 (ix2 r k) - rowMax (fun k : Fin 16 => val_main_v64 (F := Ideal) x0 x1 x2 x3 x4 x5 (ix2 r k)) := by
  rw [val_main_call2_v5_apply, val_main_call2_v4_apply, val_main_call2_v3_apply,
    show idx_main_call2_v3 (idx_main_call2_v4 (ix2 r k)) = ix1 r from
      funext fun a => Fin.ext (by match a with | ⟨0, _⟩ => rfl),
    rowmax_apply]
  rfl

/-- The row sums of the exponentials of the shifted array, at row r. -/
theorem expsum_apply (r : Fin 100000) :
    val_main_call2_v7 (F := Ideal) x0 x1 x2 x3 x4 x5 (ix1 r)
      = ∑ k : Fin 16, Ideal.exp (val_main_v64 (F := Ideal) x0 x1 x2 x3 x4 x5 (ix2 r k)
          - rowMax (fun k : Fin 16 => val_main_v64 (F := Ideal) x0 x1 x2 x3 x4 x5 (ix2 r k))) := by
  rw [val_main_call2_v7_apply]
  have h0 : ((val_main_call2_cst_1 (F := Ideal)) (Shape.Idx.first h_S_) : EReal) = (0 : EReal) := Ideal.ofBits_zero_f32
  refine (congrArg (fun y : EReal => y + ∑ k : Fin 16, ((val_main_call2_v6 (F := Ideal) x0 x1 x2 x3 x4 x5) (idx_main_call2_v7 (ix1 r) k) : EReal)) h0).trans ?_
  refine (zero_add _).trans ?_
  refine Finset.sum_congr rfl fun k _ => ?_
  have e7 : idx_main_call2_v7 (ix1 r) k = ix2 r k :=
    funext fun a => Fin.ext (by match a with | ⟨0, _⟩ => rfl | ⟨1, _⟩ => rfl)
  rw [e7, val_main_call2_v6_apply, Ideal.hostUnary_exp_def]
  exact congrArg Ideal.exp (shifted_apply x0 x1 x2 x3 x4 x5 r k)

/-- The logarithm the reference subtracts, at (r, q): the logarithm of row r's sum of exponentials. -/
theorem logsum_apply (r : Fin 100000) (q : Fin 16) :
    val_main_call2_v10 (F := Ideal) x0 x1 x2 x3 x4 x5 (ix2 r q)
      = Ideal.log (∑ k : Fin 16, Ideal.exp (val_main_v64 (F := Ideal) x0 x1 x2 x3 x4 x5 (ix2 r k)
          - rowMax (fun k : Fin 16 => val_main_v64 (F := Ideal) x0 x1 x2 x3 x4 x5 (ix2 r k)))) := by
  rw [val_main_call2_v10_apply, val_main_call2_v9_apply, val_main_call2_v8_apply]
  have e8 : idx_main_call2_v8 (idx_main_call2_v10 (ix2 r q)) = ix1 r :=
    funext fun a => Fin.ext (by match a with | ⟨0, _⟩ => rfl)
  rw [e8, Ideal.hostUnary_log_def]
  exact congrArg Ideal.log (expsum_apply x0 x1 x2 x3 x4 x5 r)

/-- Entry (r, q) of the reference's result: the log-softmax of row r of the biased array at lane q. -/
theorem result_apply (r : Fin 100000) (q : Fin 16) :
    val_main_v65 (F := Ideal) x0 x1 x2 x3 x4 x5 (ix2 r q)
      = rowLogSoftmax (fun k : Fin 16 => val_main_v64 (F := Ideal) x0 x1 x2 x3 x4 x5 (ix2 r k)) q := by
  rw [val_main_v65_apply]
  unfold rowLogSoftmax
  exact congrArg₂ (fun x y : EReal => x - y) (shifted_apply x0 x1 x2 x3 x4 x5 r q) (logsum_apply x0 x1 x2 x3 x4 x5 r q)

end Cert.ReferenceIdeal.RefSoftmax

end
-- ==== Proof.LibHostLine.lean ====
/-
  A fact about the operations of a called function in a straight line of host operations.

  Such an operation carries its operands from their buffers' types to the values' types and its result back, along the
  equation between the two types. Carrying a value to a buffer's own type and back is the identity, whatever the buffer:
  with it the chain of intermediate values of a called function reads as the plain composition of its operations.
-/
import Idealize.ShloMosaic.Lib.StableHlo.Run

noncomputable section

namespace Cert.LibHostLine

open Idealize.ShloMosaic Idealize.ShloMosaic.StableHlo

variable {sig : RefSig} {Val : EltTy → Type}

/-- Contents carried to a buffer's own type and back are themselves. -/
theorem ofBuf_toBuf {T : BufTy} (x : TRef sig T) (v : T.Contents Val) : x.ofBuf (x.toBuf v) = v := by
  obtain ⟨r, rfl, _, _⟩ := x; rfl

end Cert.LibHostLine

end
-- ==== Proof.Fold.lean ====
/-
  The idealized kernel's result as a function of its six argument arrays.

  The program alternates stretches of host operations with four kernel regions. Read from the launch memory: the first
  stretches build the edge lists with their self loops and the per-edge normalization weight; the first region is the
  product of the features with the first weight matrix; the next stretch gathers it by source, scales it and scatter-adds
  it by target; the second region adds the bias and rectifies; the third region is the product with the second weight
  matrix; the next stretch aggregates it the same way; the fourth region adds the bias and takes the row-wise log-softmax.
  Each stretch's operations are the reference's own, and each region's array is the reference's stage at the same place
  (a blocked product is the whole product; the bias row [1, n] read at lane q is the bias at q; the rectifier and the
  log-softmax are row-wise), so the result buffer ends at the reference's last stage of the launch contents.
-/
import proofs.«102561_j3453153706769_1_alg».proof.Proof.Gen.KernelIdeal.Frame
import proofs.«102561_j3453153706769_1_alg».proof.Proof.Region0
import proofs.«102561_j3453153706769_1_alg».proof.Proof.Region1
import proofs.«102561_j3453153706769_1_alg».proof.Proof.Region2
import proofs.«102561_j3453153706769_1_alg».proof.Proof.Region3
import proofs.«102561_j3453153706769_1_alg».proof.Proof.RefReadP
import proofs.«102561_j3453153706769_1_alg».proof.Proof.RefSoftmax
import proofs.«102561_j3453153706769_1_alg».proof.Proof.LibHostLine
import Idealize.ShloMosaic.Lib.StableHlo.Run
import Idealize.ShloMosaic.Lib.Pipeline.Value
import Idealize.ShloMosaic.Lib.ValueLayout

set_option maxRecDepth 16384

noncomputable section

namespace Cert.KernelIdeal.Fold

open Cert.KernelIdeal Cert.KernelIdeal.Gen Cert.RowSpec Cert.LibHostLine
open Idealize.ShloMosaic Idealize.ShloMosaic.TcCoe Idealize.ShloMosaic.ValueIdx Idealize.SL.Sem Idealize.ShloMosaic.StableHlo
open Cert.ReferenceIdeal.Read
open scoped BigOperators

/-! ## The regions' functions are the reference's stages -/

/-- The blocked first product is the reference's whole product. -/
theorem prod0_eq (a0 : (⟨Cert.ReferenceIdeal.S100000x512, .f32⟩ : BufTy).Contents (Elt Ideal)) (a2 : (⟨Cert.ReferenceIdeal.S512x64, .f32⟩ : BufTy).Contents (Elt Ideal)) :
    Region0.prod a0 a2 = val_main_v30 (F := Ideal) a0 a2 := by
  funext i
  rw [val_main_v30_apply]
  unfold Region0.prod
  exact Finset.sum_congr rfl fun k _ => congrArg₂ (fun x y : EReal => x * y)
    (congrArg a0 (funext fun a => Fin.ext (by match a with | ⟨0, _⟩ => rfl | ⟨1, _⟩ => rfl)))
    (congrArg a2 (funext fun a => Fin.ext (by match a with | ⟨0, _⟩ => rfl | ⟨1, _⟩ => rfl)))

/-- Bias and rectifier on the aggregated first layer: the reference's rectified stage. -/
theorem relu_eq (a0 : (⟨Cert.ReferenceIdeal.S100000x512, .f32⟩ : BufTy).Contents (Elt Ideal)) (a1 : (⟨Cert.ReferenceIdeal.S2x1600000, .i32⟩ : BufTy).Contents (Elt Ideal))
    (a2 : (⟨Cert.ReferenceIdeal.S512x64, .f32⟩ : BufTy).Contents (Elt Ideal)) (a3 : (⟨Cert.ReferenceIdeal.S64, .f32⟩ : BufTy).Contents (Elt Ideal)) :
    Region1.biasRelu (val_main_v43 (F := Ideal) a0 a1 a2) (shapeCast (α := EReal) S1x64 a3 shapeCasts_S64_S1x64)
      = val_main_v47 (F := Ideal) a0 a1 a2 a3 := by
  funext i
  obtain ⟨r, q, rfl⟩ : ∃ (r : Fin 100000) (q : Fin 64), i = ix2 r q := ⟨i 0, i 1, eq_ix2 i⟩
  rw [val_main_v47_apply, val_main_v46_apply, val_main_v45_apply, val_main_v44_apply, val_main_call1_v0_apply,
    val_main_call1_cst_apply]
  unfold Region1.biasRelu
  rw [shapeCast_a_1a_apply]
  exact congrArg (fun y : EReal => max (val_main_v43 (F := Ideal) a0 a1 a2 (ix2 r q) + y) (Ideal.ofBits .f32 0x00000000#32))
    (congrArg a3 (funext fun a => Fin.ext (by match a with | ⟨0, _⟩ => rfl)))

/-- The blocked second product is the reference's whole product. -/
theorem prod2_eq (a0 : (⟨Cert.ReferenceIdeal.S100000x512, .f32⟩ : BufTy).Contents (Elt Ideal)) (a1 : (⟨Cert.ReferenceIdeal.S2x1600000, .i32⟩ : BufTy).Contents (Elt Ideal))
    (a2 : (⟨Cert.ReferenceIdeal.S512x64, .f32⟩ : BufTy).Contents (Elt Ideal)) (a3 : (⟨Cert.ReferenceIdeal.S64, .f32⟩ : BufTy).Contents (Elt Ideal)) (a4 : (⟨Cert.ReferenceIdeal.S64x16, .f32⟩ : BufTy).Contents (Elt Ideal)) :
    Region2.prod (val_main_v47 (F := Ideal) a0 a1 a2 a3) a4 = val_main_v48 (F := Ideal) a0 a1 a2 a3 a4 := by
  funext i
  rw [val_main_v48_apply]
  unfold Region2.prod
  exact Finset.sum_congr rfl fun k _ => congrArg₂ (fun x y : EReal => x * y)
    (congrArg (val_main_v47 (F := Ideal) a0 a1 a2 a3) (funext fun a => Fin.ext (by match a with | ⟨0, _⟩ => rfl | ⟨1, _⟩ => rfl)))
    (congrArg a4 (funext fun a => Fin.ext (by match a with | ⟨0, _⟩ => rfl | ⟨1, _⟩ => rfl)))

/-- Bias and row-wise log-softmax on the aggregated second layer: the reference's result stage. -/
theorem lsm_eq (a0 : (⟨Cert.ReferenceIdeal.S100000x512, .f32⟩ : BufTy).Contents (Elt Ideal)) (a1 : (⟨Cert.ReferenceIdeal.S2x1600000, .i32⟩ : BufTy).Contents (Elt Ideal))
    (a2 : (⟨Cert.ReferenceIdeal.S512x64, .f32⟩ : BufTy).Contents (Elt Ideal)) (a3 : (⟨Cert.ReferenceIdeal.S64, .f32⟩ : BufTy).Contents (Elt Ideal)) (a4 : (⟨Cert.ReferenceIdeal.S64x16, .f32⟩ : BufTy).Contents (Elt Ideal)) (a5 : (⟨Cert.ReferenceIdeal.S16, .f32⟩ : BufTy).Contents (Elt Ideal)) :
    Region3.biasLogSoftmax (val_main_v61 (F := Ideal) a0 a1 a2 a3 a4) (shapeCast (α := EReal) S1x16 a5 shapeCasts_S16_S1x16)
      = val_main_v65 (F := Ideal) a0 a1 a2 a3 a4 a5 := by
  funext i
  obtain ⟨r, q, rfl⟩ : ∃ (r : Fin 100000) (q : Fin 16), i = ix2 r q := ⟨i 0, i 1, eq_ix2 i⟩
  rw [Cert.ReferenceIdeal.RefSoftmax.result_apply]
  unfold Region3.biasLogSoftmax
  refine congrArg₂ (rowLogSoftmax (n := 16)) (funext fun k => ?_) rfl
  rw [val_main_v64_apply, val_main_v63_apply, val_main_v62_apply, shapeCast_a_1a_apply]
  exact congrArg (fun y : EReal => val_main_v61 (F := Ideal) a0 a1 a2 a3 a4 (ix2 r k) + y)
    (congrArg a5 (funext fun a => Fin.ext (by match a with | ⟨0, _⟩ => rfl)))

/-! ## The host stretches, from any contents -/

section Stretches

variable (V : Valuation τ sig (Elt Ideal))

/-- The first stretch alone: the two edge lists, and the two values the degree's reciprocal root is selected from. -/
theorem pre0_v3 : after (hostOps0 (F := Ideal)) V (Proc.devRef .tc main_v3) = val_main_v3 (F := Ideal) (V (Proc.devRef .tc main_arg1)) := by
  after_results_simp <;> rfl
theorem pre0_v6 : after (hostOps0 (F := Ideal)) V (Proc.devRef .tc main_v6) = val_main_v6 (F := Ideal) (V (Proc.devRef .tc main_arg1)) := by
  after_results_simp <;> rfl
theorem pre0_v12 : after (hostOps0 (F := Ideal)) V (Proc.devRef .tc main_v12) = val_main_v12 (F := Ideal) (V (Proc.devRef .tc main_arg1)) := by
  after_results_simp <;> rfl
theorem pre0_v13 : after (hostOps0 (F := Ideal)) V (Proc.devRef .tc main_v13) = val_main_v13 (F := Ideal) (V (Proc.devRef .tc main_arg1)) := by
  after_results_simp <;> rfl
theorem pre0_cst_2 : after (hostOps0 (F := Ideal)) V (Proc.devRef .tc main_cst_2) = val_main_cst_2 (F := Ideal) := by
  after_results_simp <;> rfl
/-- The selection: the reciprocal root of the degree where the degree is positive, zero elsewhere. -/
theorem pre1_v14 (a1 : (⟨Cert.ReferenceIdeal.S2x1600000, .i32⟩ : BufTy).Contents (Elt Ideal)) (h12 : V (Proc.devRef .tc main_v12) = val_main_v12 (F := Ideal) a1)
    (h13 : V (Proc.devRef .tc main_v13) = val_main_v13 (F := Ideal) a1) (hc : V (Proc.devRef .tc main_cst_2) = val_main_cst_2 (F := Ideal)) :
    after (hostOps0_1 (F := Ideal)) V (Proc.devRef .tc main_v14) = val_main_v14 (F := Ideal) a1 := by
  after_results_simp
  rw [h12, h13, hc]
  simp only [ofBuf_toBuf]
  have hA : ∀ p1 p2 p3, (TRef.of (sig := sig) (T := ⟨S100000, .i1⟩) main_v12 p1 p2 p3).ofBuf (Val := Elt Ideal) (val_main_v12 (F := Ideal) a1)
      = val_main_v12 (F := Ideal) a1 := fun _ _ _ => rfl
  have hB : ∀ p1 p2 p3, (TRef.of (sig := sig) (T := ⟨S100000, .f32⟩) main_v13 p1 p2 p3).ofBuf (Val := Elt Ideal) (val_main_v13 (F := Ideal) a1)
      = val_main_v13 (F := Ideal) a1 := fun _ _ _ => rfl
  have hC : ∀ p1 p2 p3, (TRef.of (sig := sig) (T := ⟨S_, .f32⟩) main_cst_2 p1 p2 p3).ofBuf (Val := Elt Ideal) (val_main_cst_2 (F := Ideal))
      = val_main_cst_2 (F := Ideal) := fun _ _ _ => rfl
  have hD : ∀ p1 p2 p3 (v : (⟨S100000, .f32⟩ : BufTy).Contents (Elt Ideal)),
      (TRef.of (sig := sig) (T := ⟨S100000, .f32⟩) main_v14 p1 p2 p3).toBuf (Val := Elt Ideal) v = v := fun _ _ _ _ => rfl
  have hE : (broadcastInDim (α := Elt Ideal .f32) S100000 ![] bcast_S_S100000 (id (val_main_cst_2 (F := Ideal))))
      = val_main_call0_v1 (F := Ideal) := rfl
  rw [hA, hB, hC, hD, hE]
  rfl
theorem pre1_v3 : after (hostOps0_1 (F := Ideal)) V (Proc.devRef .tc main_v3) = V (Proc.devRef .tc main_v3) := by after_results_simp
theorem pre1_v6 : after (hostOps0_1 (F := Ideal)) V (Proc.devRef .tc main_v6) = V (Proc.devRef .tc main_v6) := by after_results_simp
/-- The per-edge weight: the selected value gathered at the edge's source times the one gathered at its target. -/
theorem pre2_v29 (a1 : (⟨Cert.ReferenceIdeal.S2x1600000, .i32⟩ : BufTy).Contents (Elt Ideal)) (h14 : V (Proc.devRef .tc main_v14) = val_main_v14 (F := Ideal) a1)
    (h3 : V (Proc.devRef .tc main_v3) = val_main_v3 (F := Ideal) a1) (h6 : V (Proc.devRef .tc main_v6) = val_main_v6 (F := Ideal) a1) :
    after (hostOps0_2 (F := Ideal)) V (Proc.devRef .tc main_v29) = val_main_v29 (F := Ideal) a1 := by
  after_results_simp
  rw [h14, h3, h6]
  rfl

/-- Before the first region: the source list with its self loops … -/
theorem pre_v3 : after (hostOps0_2 (F := Ideal)) (after (hostOps0_1 (F := Ideal)) (after (hostOps0 (F := Ideal)) V)) (Proc.devRef .tc main_v3) = val_main_v3 (F := Ideal) (V (Proc.devRef .tc main_arg1)) := by
  after_results_simp <;> rfl
/-- … the target list … -/
theorem pre_v6 : after (hostOps0_2 (F := Ideal)) (after (hostOps0_1 (F := Ideal)) (after (hostOps0 (F := Ideal)) V)) (Proc.devRef .tc main_v6) = val_main_v6 (F := Ideal) (V (Proc.devRef .tc main_arg1)) := by
  after_results_simp <;> rfl
/-- … and the per-edge normalization weight. -/
theorem pre_v29 : after (hostOps0_2 (F := Ideal)) (after (hostOps0_1 (F := Ideal)) (after (hostOps0 (F := Ideal)) V)) (Proc.devRef .tc main_v29) = val_main_v29 (F := Ideal) (V (Proc.devRef .tc main_arg1)) :=
  pre2_v29 _ _
    (pre1_v14 _ _ (pre0_v12 V) (pre0_v13 V) (pre0_cst_2 V))
    ((pre1_v3 _).trans (pre0_v3 V)) ((pre1_v6 _).trans (pre0_v6 V))
theorem pre_arg0 : after (hostOps0_2 (F := Ideal)) (after (hostOps0_1 (F := Ideal)) (after (hostOps0 (F := Ideal)) V)) (Proc.devRef .tc main_arg0) = V (Proc.devRef .tc main_arg0) := by after_results_simp
theorem pre_arg2 : after (hostOps0_2 (F := Ideal)) (after (hostOps0_1 (F := Ideal)) (after (hostOps0 (F := Ideal)) V)) (Proc.devRef .tc main_arg2) = V (Proc.devRef .tc main_arg2) := by after_results_simp
theorem pre_arg3 : after (hostOps0_2 (F := Ideal)) (after (hostOps0_1 (F := Ideal)) (after (hostOps0 (F := Ideal)) V)) (Proc.devRef .tc main_arg3) = V (Proc.devRef .tc main_arg3) := by after_results_simp
theorem pre_arg4 : after (hostOps0_2 (F := Ideal)) (after (hostOps0_1 (F := Ideal)) (after (hostOps0 (F := Ideal)) V)) (Proc.devRef .tc main_arg4) = V (Proc.devRef .tc main_arg4) := by after_results_simp
theorem pre_arg5 : after (hostOps0_2 (F := Ideal)) (after (hostOps0_1 (F := Ideal)) (after (hostOps0 (F := Ideal)) V)) (Proc.devRef .tc main_arg5) = V (Proc.devRef .tc main_arg5) := by after_results_simp

/-- Between the first and second regions: the aggregated first layer … -/
theorem mid_v43 (a0 : (⟨Cert.ReferenceIdeal.S100000x512, .f32⟩ : BufTy).Contents (Elt Ideal)) (a1 : (⟨Cert.ReferenceIdeal.S2x1600000, .i32⟩ : BufTy).Contents (Elt Ideal))
    (a2 : (⟨Cert.ReferenceIdeal.S512x64, .f32⟩ : BufTy).Contents (Elt Ideal))
    (hv30 : V (Proc.devRef .tc main_v30) = val_main_v30 (F := Ideal) a0 a2) (hv3 : V (Proc.devRef .tc main_v3) = val_main_v3 (F := Ideal) a1)
    (hv6 : V (Proc.devRef .tc main_v6) = val_main_v6 (F := Ideal) a1) (hv29 : V (Proc.devRef .tc main_v29) = val_main_v29 (F := Ideal) a1) :
    after (hostOps1 (F := Ideal)) V (Proc.devRef .tc main_v43) = val_main_v43 (F := Ideal) a0 a1 a2 := by
  after_results_simp
  rw [hv30, hv3, hv6, hv29]
  rfl
/-- … and the first bias as a row. -/
theorem mid_v44 : after (hostOps1 (F := Ideal)) V (Proc.devRef .tc main_v44)
    = shapeCast (α := EReal) S1x64 (V (Proc.devRef .tc main_arg3)) shapeCasts_S64_S1x64 := by
  after_results_simp <;> rfl
theorem mid_v3 : after (hostOps1 (F := Ideal)) V (Proc.devRef .tc main_v3) = V (Proc.devRef .tc main_v3) := by after_results_simp
theorem mid_v6 : after (hostOps1 (F := Ideal)) V (Proc.devRef .tc main_v6) = V (Proc.devRef .tc main_v6) := by after_results_simp
theorem mid_v29 : after (hostOps1 (F := Ideal)) V (Proc.devRef .tc main_v29) = V (Proc.devRef .tc main_v29) := by after_results_simp
theorem mid_arg4 : after (hostOps1 (F := Ideal)) V (Proc.devRef .tc main_arg4) = V (Proc.devRef .tc main_arg4) := by after_results_simp
theorem mid_arg5 : after (hostOps1 (F := Ideal)) V (Proc.devRef .tc main_arg5) = V (Proc.devRef .tc main_arg5) := by after_results_simp

/-- Between the third and fourth regions: the aggregated second layer … -/
theorem post_v59 (a0 : (⟨Cert.ReferenceIdeal.S100000x512, .f32⟩ : BufTy).Contents (Elt Ideal)) (a1 : (⟨Cert.ReferenceIdeal.S2x1600000, .i32⟩ : BufTy).Contents (Elt Ideal))
    (a2 : (⟨Cert.ReferenceIdeal.S512x64, .f32⟩ : BufTy).Contents (Elt Ideal)) (a3 : (⟨Cert.ReferenceIdeal.S64, .f32⟩ : BufTy).Contents (Elt Ideal)) (a4 : (⟨Cert.ReferenceIdeal.S64x16, .f32⟩ : BufTy).Contents (Elt Ideal))
    (hv46 : V (Proc.devRef .tc main_v46) = val_main_v48 (F := Ideal) a0 a1 a2 a3 a4) (hv3 : V (Proc.devRef .tc main_v3) = val_main_v3 (F := Ideal) a1)
    (hv6 : V (Proc.devRef .tc main_v6) = val_main_v6 (F := Ideal) a1) (hv29 : V (Proc.devRef .tc main_v29) = val_main_v29 (F := Ideal) a1) :
    after (hostOps3 (F := Ideal)) V (Proc.devRef .tc main_v59) = val_main_v61 (F := Ideal) a0 a1 a2 a3 a4 := by
  after_results_simp
  rw [hv46, hv3, hv6, hv29]
  rfl
/-- … and the second bias as a row. -/
theorem post_v60 : after (hostOps3 (F := Ideal)) V (Proc.devRef .tc main_v60)
    = shapeCast (α := EReal) S1x16 (V (Proc.devRef .tc main_arg5)) shapeCasts_S16_S1x16 := by
  after_results_simp <;> rfl

end Stretches

/-! ## The fold, boundary by boundary -/

section Fold

variable (m : (ℓ : Loc nD τ sig) → Buf (Elt Ideal) ℓ) (ρ : Dev nD → PrngReg) (c : Dev nD)

theorem W3_v3 : W3 m ρ c (Proc.devRef .tc main_v3) = val_main_v3 (F := Ideal) (m ((c : Thread nD τ).loc main_arg1)) := pre_v3 (W0 m ρ c)
theorem W3_v6 : W3 m ρ c (Proc.devRef .tc main_v6) = val_main_v6 (F := Ideal) (m ((c : Thread nD τ).loc main_arg1)) := pre_v6 (W0 m ρ c)
theorem W3_v29 : W3 m ρ c (Proc.devRef .tc main_v29) = val_main_v29 (F := Ideal) (m ((c : Thread nD τ).loc main_arg1)) := pre_v29 (W0 m ρ c)
theorem W3_arg0 : W3 m ρ c (Proc.devRef .tc main_arg0) = (m ((c : Thread nD τ).loc main_arg0)) := pre_arg0 (W0 m ρ c)
theorem W3_arg2 : W3 m ρ c (Proc.devRef .tc main_arg2) = (m ((c : Thread nD τ).loc main_arg2)) := pre_arg2 (W0 m ρ c)
theorem W3_arg3 : W3 m ρ c (Proc.devRef .tc main_arg3) = (m ((c : Thread nD τ).loc main_arg3)) := pre_arg3 (W0 m ρ c)
theorem W3_arg4 : W3 m ρ c (Proc.devRef .tc main_arg4) = (m ((c : Thread nD τ).loc main_arg4)) := pre_arg4 (W0 m ρ c)
theorem W3_arg5 : W3 m ρ c (Proc.devRef .tc main_arg5) = (m ((c : Thread nD τ).loc main_arg5)) := pre_arg5 (W0 m ρ c)

/-- After the first region its result array is the reference's first product. -/
theorem W4_v30 : W4 m ρ c (Proc.devRef .tc main_v30) = val_main_v30 (F := Ideal) (m ((c : Thread nD τ).loc main_arg0)) (m ((c : Thread nD τ).loc main_arg2)) := by
  refine (W4_arr m ρ c 2).trans ((Region0.final (V3 m ρ) c).trans ?_)
  have e0 : V3 m ρ c main_arg0 = (m ((c : Thread nD τ).loc main_arg0)) := W3_arg0 m ρ c
  have e2 : V3 m ρ c main_arg2 = (m ((c : Thread nD τ).loc main_arg2)) := W3_arg2 m ρ c
  rw [e0, e2]
  exact prod0_eq _ _
theorem W4_v3 : W4 m ρ c (Proc.devRef .tc main_v3) = val_main_v3 (F := Ideal) (m ((c : Thread nD τ).loc main_arg1)) := (W4_of_ne m ρ c main_v3 (by decide)).trans (W3_v3 m ρ c)
theorem W4_v6 : W4 m ρ c (Proc.devRef .tc main_v6) = val_main_v6 (F := Ideal) (m ((c : Thread nD τ).loc main_arg1)) := (W4_of_ne m ρ c main_v6 (by decide)).trans (W3_v6 m ρ c)
theorem W4_v29 : W4 m ρ c (Proc.devRef .tc main_v29) = val_main_v29 (F := Ideal) (m ((c : Thread nD τ).loc main_arg1)) := (W4_of_ne m ρ c main_v29 (by decide)).trans (W3_v29 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W5_v3 : W5 m ρ c (Proc.devRef .tc main_v3) = val_main_v3 (F := Ideal) (m ((c : Thread nD τ).loc main_arg1)) := (mid_v3 (W4 m ρ c)).trans (W4_v3 m ρ c)
theorem W6_v3 : W6 m ρ c (Proc.devRef .tc main_v3) = val_main_v3 (F := Ideal) (m ((c : Thread nD τ).loc main_arg1)) := (W6_of_ne m ρ c main_v3 (by decide)).trans (W5_v3 m ρ c)
theorem W5_v6 : W5 m ρ c (Proc.devRef .tc main_v6) = val_main_v6 (F := Ideal) (m ((c : Thread nD τ).loc main_arg1)) := (mid_v6 (W4 m ρ c)).trans (W4_v6 m ρ c)
theorem W6_v6 : W6 m ρ c (Proc.devRef .tc main_v6) = val_main_v6 (F := Ideal) (m ((c : Thread nD τ).loc main_arg1)) := (W6_of_ne m ρ c main_v6 (by decide)).trans (W5_v6 m ρ c)
theorem W5_v29 : W5 m ρ c (Proc.devRef .tc main_v29) = val_main_v29 (F := Ideal) (m ((c : Thread nD τ).loc main_arg1)) := (mid_v29 (W4 m ρ c)).trans (W4_v29 m ρ c)
theorem W6_v29 : W6 m ρ c (Proc.devRef .tc main_v29) = val_main_v29 (F := Ideal) (m ((c : Thread nD τ).loc main_arg1)) := (W6_of_ne m ρ c main_v29 (by decide)).trans (W5_v29 m ρ c)
theorem W5_arg4 : W5 m ρ c (Proc.devRef .tc main_arg4) = (m ((c : Thread nD τ).loc main_arg4)) := (mid_arg4 (W4 m ρ c)).trans (W4_arg4 m ρ c)
theorem W6_arg4 : W6 m ρ c (Proc.devRef .tc main_arg4) = (m ((c : Thread nD τ).loc main_arg4)) := (W6_of_ne m ρ c main_arg4 (by decide)).trans (W5_arg4 m ρ c)
theorem W5_arg5 : W5 m ρ c (Proc.devRef .tc main_arg5) = (m ((c : Thread nD τ).loc main_arg5)) := (mid_arg5 (W4 m ρ c)).trans (W4_arg5 m ρ c)
theorem W6_arg5 : W6 m ρ c (Proc.devRef .tc main_arg5) = (m ((c : Thread nD τ).loc main_arg5)) := (W6_of_ne m ρ c main_arg5 (by decide)).trans (W5_arg5 m ρ c)
theorem W7_v3 : W7 m ρ c (Proc.devRef .tc main_v3) = val_main_v3 (F := Ideal) (m ((c : Thread nD τ).loc main_arg1)) := (W7_of_ne m ρ c main_v3 (by decide)).trans (W6_v3 m ρ c)
theorem W7_v6 : W7 m ρ c (Proc.devRef .tc main_v6) = val_main_v6 (F := Ideal) (m ((c : Thread nD τ).loc main_arg1)) := (W7_of_ne m ρ c main_v6 (by decide)).trans (W6_v6 m ρ c)
theorem W7_v29 : W7 m ρ c (Proc.devRef .tc main_v29) = val_main_v29 (F := Ideal) (m ((c : Thread nD τ).loc main_arg1)) := (W7_of_ne m ρ c main_v29 (by decide)).trans (W6_v29 m ρ c)
theorem W7_arg5 : W7 m ρ c (Proc.devRef .tc main_arg5) = (m ((c : Thread nD τ).loc main_arg5)) := (W7_of_ne m ρ c main_arg5 (by decide)).trans (W6_arg5 m ρ c)

/-- At the second region's entry: the aggregated first layer … -/
theorem W5_v43 : W5 m ρ c (Proc.devRef .tc main_v43) = val_main_v43 (F := Ideal) (m ((c : Thread nD τ).loc main_arg0)) (m ((c : Thread nD τ).loc main_arg1)) (m ((c : Thread nD τ).loc main_arg2)) :=
  mid_v43 (W4 m ρ c) _ _ _ (W4_v30 m ρ c) (W4_v3 m ρ c) (W4_v6 m ρ c) (W4_v29 m ρ c)
/-- … and the first bias as a row. -/
theorem W5_v44 : W5 m ρ c (Proc.devRef .tc main_v44) = shapeCast (α := EReal) S1x64 (m ((c : Thread nD τ).loc main_arg3)) shapeCasts_S64_S1x64 :=
  (mid_v44 (W4 m ρ c)).trans (congrArg (fun x => shapeCast (α := EReal) S1x64 x shapeCasts_S64_S1x64) (W4_arg3 m ρ c))

/-- After the second region its result array is the reference's rectified first layer. -/
theorem W6_v45 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Region1.final (V5 m ρ) c).trans ?_)
  have e0 : V5 m ρ c main_v43 = val_main_v43 (F := Ideal) (m ((c : Thread nD τ).loc main_arg0)) (m ((c : Thread nD τ).loc main_arg1)) (m ((c : Thread nD τ).loc main_arg2)) := W5_v43 m ρ c
  have e1 : V5 m ρ c main_v44 = shapeCast (α := EReal) S1x64 (m ((c : Thread nD τ).loc main_arg3)) shapeCasts_S64_S1x64 := W5_v44 m ρ c
  rw [e0, e1]
  exact relu_eq _ _ _ _

/-- After the third region its result array is the reference's second product. -/
theorem W7_v46 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region2.final (V6 m ρ) c).trans ?_)
  have e0 : V6 m ρ c main_v45 = val_main_v47 (F := Ideal) (m ((c : Thread nD τ).loc main_arg0)) (m ((c : Thread nD τ).loc main_arg1)) (m ((c : Thread nD τ).loc main_arg2)) (m ((c : Thread nD τ).loc main_arg3)) := W6_v45 m ρ c
  have e1 : V6 m ρ c main_arg4 = (m ((c : Thread nD τ).loc main_arg4)) := W6_arg4 m ρ c
  rw [e0, e1]
  exact prod2_eq _ _ _ _ _

/-- At the fourth region's entry: the aggregated second layer … -/
theorem W8_v59 : W8 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  post_v59 (W7 m ρ c) _ _ _ _ _ (W7_v46 m ρ c) (W7_v3 m ρ c) (W7_v6 m ρ c) (W7_v29 m ρ c)
/-- … and the second bias as a row. -/
theorem W8_v60 : W8 m ρ c (Proc.devRef .tc main_v60) = shapeCast (α := EReal) S1x16 (m ((c : Thread nD τ).loc main_arg5)) shapeCasts_S16_S1x16 :=
  (post_v60 (W7 m ρ c)).trans (congrArg (fun x => shapeCast (α := EReal) S1x16 x shapeCasts_S16_S1x16) (W7_arg5 m ρ c))

/-- THE RESULT: after the last region the result array is the reference's last stage of the launch contents. -/
theorem result : W9 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.final (V8 m ρ) c).trans ?_)
  have e0 : V8 m ρ c main_v59 = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := W8_v59 m ρ c
  have e1 : V8 m ρ c main_v60 = shapeCast (α := EReal) S1x16 (m ((c : Thread nD τ).loc main_arg5)) shapeCasts_S16_S1x16 := W8_v60 m ρ c
  rw [e0, e1]
  exact lsm_eq _ _ _ _ _ _

end Fold

end Cert.KernelIdeal.Fold

end
-- ==== Proof.RefRun.lean ====
/-
  The reference program's run, and its result as the composition of its operations.

  The reference is a straight line of 98 host operations. Its run from any memory ends with every buffer at the fold of
  the operations over the launch contents. The line is cut in four stretches: the edge lists with their self loops and the
  symmetric normalization (the source list, the target list and the per-edge weight are all that later stretches read of
  it); the first layer (product with the first weight matrix, gather by source, scaling, scatter-add by target, bias,
  relu) and the second product; the second aggregation and bias; the row-wise log-softmax. Read stretch by stretch, each
  value a later stretch needs is the stage function of the arguments that the read-at-an-index module names, so the
  result buffer ends at the last stage of the six argument arrays.
-/
import proofs.«102561_j3453153706769_1_alg».proof.Proof.Gen.ReferenceIdeal
import proofs.«102561_j3453153706769_1_alg».proof.Proof.RefReadP
import proofs.«102561_j3453153706769_1_alg».proof.Proof.LibHostLine
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Read Cert.LibHostLine

variable {F : FTy → Type} [FloatOps F]

/-- The 98 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x16 ![0, 1] bcast_S1700000x1_S1700000x16_0_1 : (⟨S1700000x1, .f32⟩ : BufTy).Contents (Elt F) → (⟨S1700000x16, .f32⟩ : BufTy).Contents (Elt F)),
    binary main_v55 main_v57 main_v58 (mulf : (⟨S1700000x16, .f32⟩ : BufTy).Contents (Elt F) → (⟨S1700000x16, .f32⟩ : BufTy).Contents (Elt F) → (⟨S1700000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0xFF800000#32),
    TRef.binary (TRef.of (T := ⟨S100000x16, .f32⟩) main_v64) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v64) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v65) subf ]

/-- Edge lists, degrees and the per-edge normalization weight: 40 operations. -/
abbrev seg1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first layer and the second product: 24 operations. -/
abbrev seg2 : List (HloOp τ sig (Elt F)) :=
  [ binary main_arg0 main_arg2 main_v30 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- The second aggregation and its bias: 19 operations. -/
abbrev seg3 : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x16 ![0, 1] bcast_S1700000x1_S1700000x16_0_1 : (⟨S1700000x1, .f32⟩ : BufTy).Contents (Elt F) → (⟨S1700000x16, .f32⟩ : BufTy).Contents (Elt F)),
    binary main_v55 main_v57 main_v58 (mulf : (⟨S1700000x16, .f32⟩ : BufTy).Contents (Elt F) → (⟨S1700000x16, .f32⟩ : BufTy).Contents (Elt F) → (⟨S1700000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)) ]

/-- The row-wise log-softmax: 15 operations. -/
abbrev seg4 : List (HloOp τ sig (Elt F)) :=
  [ TRef.nullary (TRef.of (T := ⟨S_, .f32⟩) main_call2_cst) (constant S_ .f32 0xFF800000#32),
    TRef.binary (TRef.of (T := ⟨S100000x16, .f32⟩) main_v64) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v64) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v65) subf ]

set_option maxRecDepth 8192 in
set_option maxHeartbeats 4000000 in
/-- The program is the line of its operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- The line is its four stretches, one after the other. -/
theorem ops_split : (ops : List (HloOp τ sig (Elt F))) = seg1 ++ (seg2 ++ (seg3 ++ seg4)) := rfl

/-- THE RUN: every weakly fair execution terminates, and every buffer ends at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The stretches, one at a time, from any contents -/

section Stretches

variable (V : Valuation τ sig (Elt F))

/-- The source list with its self loops, of the edge-index argument. -/
theorem seg1_v3 : after (seg1 (F := F)) V (Proc.devRef .tc main_v3) = val_main_v3 (F := F) (V (Proc.devRef .tc main_arg1)) := by
  after_results_simp <;> rfl
/-- The target list with its self loops. -/
theorem seg1_v6 : after (seg1 (F := F)) V (Proc.devRef .tc main_v6) = val_main_v6 (F := F) (V (Proc.devRef .tc main_arg1)) := by
  after_results_simp <;> rfl
/-- The per-edge normalization weight. -/
theorem seg1_v29 : after (seg1 (F := F)) V (Proc.devRef .tc main_v29) = val_main_v29 (F := F) (V (Proc.devRef .tc main_arg1)) := by
  after_results_simp <;> rfl
theorem seg1_arg0 : after (seg1 (F := F)) V (Proc.devRef .tc main_arg0) = V (Proc.devRef .tc main_arg0) := by after_results_simp
theorem seg1_arg1 : after (seg1 (F := F)) V (Proc.devRef .tc main_arg1) = V (Proc.devRef .tc main_arg1) := by after_results_simp
theorem seg1_arg2 : after (seg1 (F := F)) V (Proc.devRef .tc main_arg2) = V (Proc.devRef .tc main_arg2) := by after_results_simp
theorem seg1_arg3 : after (seg1 (F := F)) V (Proc.devRef .tc main_arg3) = V (Proc.devRef .tc main_arg3) := by after_results_simp
theorem seg1_arg4 : after (seg1 (F := F)) V (Proc.devRef .tc main_arg4) = V (Proc.devRef .tc main_arg4) := by after_results_simp
theorem seg1_arg5 : after (seg1 (F := F)) V (Proc.devRef .tc main_arg5) = V (Proc.devRef .tc main_arg5) := by after_results_simp

/-- The second product, from contents that hold the arguments and the first stretch's three values. -/
theorem seg2_v48 (a0 : (⟨S100000x512, .f32⟩ : BufTy).Contents (Elt F)) (a1 : (⟨S2x1600000, .i32⟩ : BufTy).Contents (Elt F))
    (a2 : (⟨S512x64, .f32⟩ : BufTy).Contents (Elt F)) (a3 : (⟨S64, .f32⟩ : BufTy).Contents (Elt F)) (a4 : (⟨S64x16, .f32⟩ : BufTy).Contents (Elt F))
    (h0 : V (Proc.devRef .tc main_arg0) = a0) (h2 : V (Proc.devRef .tc main_arg2) = a2) (h3 : V (Proc.devRef .tc main_arg3) = a3)
    (h4 : V (Proc.devRef .tc main_arg4) = a4) (hv3 : V (Proc.devRef .tc main_v3) = val_main_v3 (F := F) a1)
    (hv6 : V (Proc.devRef .tc main_v6) = val_main_v6 (F := F) a1) (hv29 : V (Proc.devRef .tc main_v29) = val_main_v29 (F := F) a1) :
    after (seg2 (F := F)) V (Proc.devRef .tc main_v48) = val_main_v48 (F := F) a0 a1 a2 a3 a4 := by
  after_results_simp
  rw [h0, h2, h3, h4, hv3, hv6, hv29]
  rfl
theorem seg2_v3 : after (seg2 (F := F)) V (Proc.devRef .tc main_v3) = V (Proc.devRef .tc main_v3) := by after_results_simp
theorem seg2_v6 : after (seg2 (F := F)) V (Proc.devRef .tc main_v6) = V (Proc.devRef .tc main_v6) := by after_results_simp
theorem seg2_v29 : after (seg2 (F := F)) V (Proc.devRef .tc main_v29) = V (Proc.devRef .tc main_v29) := by after_results_simp
theorem seg2_arg5 : after (seg2 (F := F)) V (Proc.devRef .tc main_arg5) = V (Proc.devRef .tc main_arg5) := by after_results_simp

/-- The second aggregation with its bias. -/
theorem seg3_v64 (a0 : (⟨S100000x512, .f32⟩ : BufTy).Contents (Elt F)) (a1 : (⟨S2x1600000, .i32⟩ : BufTy).Contents (Elt F))
    (a2 : (⟨S512x64, .f32⟩ : BufTy).Contents (Elt F)) (a3 : (⟨S64, .f32⟩ : BufTy).Contents (Elt F)) (a4 : (⟨S64x16, .f32⟩ : BufTy).Contents (Elt F))
    (a5 : (⟨S16, .f32⟩ : BufTy).Contents (Elt F))
    (h5 : V (Proc.devRef .tc main_arg5) = a5) (hv48 : V (Proc.devRef .tc main_v48) = val_main_v48 (F := F) a0 a1 a2 a3 a4)
    (hv3 : V (Proc.devRef .tc main_v3) = val_main_v3 (F := F) a1)
    (hv6 : V (Proc.devRef .tc main_v6) = val_main_v6 (F := F) a1) (hv29 : V (Proc.devRef .tc main_v29) = val_main_v29 (F := F) a1) :
    after (seg3 (F := F)) V (Proc.devRef .tc main_v64) = val_main_v64 (F := F) a0 a1 a2 a3 a4 a5 := by
  after_results_simp
  rw [h5, hv48, hv3, hv6, hv29]
  rfl

/-- The log-softmax of the second layer's rows. -/
theorem seg4_v65 (a0 : (⟨S100000x512, .f32⟩ : BufTy).Contents (Elt F)) (a1 : (⟨S2x1600000, .i32⟩ : BufTy).Contents (Elt F))
    (a2 : (⟨S512x64, .f32⟩ : BufTy).Contents (Elt F)) (a3 : (⟨S64, .f32⟩ : BufTy).Contents (Elt F)) (a4 : (⟨S64x16, .f32⟩ : BufTy).Contents (Elt F))
    (a5 : (⟨S16, .f32⟩ : BufTy).Contents (Elt F))
    (hv64 : V (Proc.devRef .tc main_v64) = val_main_v64 (F := F) a0 a1 a2 a3 a4 a5) :
    after (seg4 (F := F)) V (Proc.devRef .tc main_v65) = val_main_v65 (F := F) a0 a1 a2 a3 a4 a5 := by
  after_results_simp
  rw [hv64]
  simp only [ofBuf_toBuf]
  rfl

end Stretches

/-! ## The whole line -/

/-- The result buffer ends at the last stage of the six argument arrays. -/
theorem value (m : (ℓ : Loc nD τ sig) → Buf (Elt F) ℓ) (c : Dev nD) :
    after (ops (F := F)) (launchContents m c) (Proc.devRef .tc main_v65)
      = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, after_append, after_append, after_append]
  refine seg4_v65 _ _ _ _ _ _ _ (seg3_v64 _ _ _ _ _ _ _ ?_ (seg2_v48 _ _ _ _ _ _ ?_ ?_ ?_ ?_ ?_ ?_ ?_) ?_ ?_ ?_)
  · exact (seg2_arg5 _).trans (seg1_arg5 _)
  · exact seg1_arg0 _
  · exact seg1_arg2 _
  · exact seg1_arg3 _
  · exact seg1_arg4 _
  · exact seg1_v3 _
  · exact seg1_v6 _
  · exact seg1_v29 _
  · exact (seg2_v3 _).trans (seg1_v3 _)
  · exact (seg2_v6 _).trans (seg1_v6 _)
  · exact (seg2_v29 _).trans (seg1_v29 _)

theorem kept_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl
theorem kept_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl
theorem kept_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl
theorem kept_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl
theorem kept_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl
theorem kept_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

/-- The reference's run: every weakly fair execution terminates, the result buffer at the last stage of the argument
    arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (value m c), (h c main_arg0).trans (kept_arg0 m c),
      (h c main_arg1).trans (kept_arg1 m c), (h c main_arg2).trans (kept_arg2 m c), (h c main_arg3).trans (kept_arg3 m c),
      (h c main_arg4).trans (kept_arg4 m c), (h c main_arg5).trans (kept_arg5 m c)⟩)
    (run_all m ρ)

end Cert.ReferenceIdeal.RefRun

end
-- ==== Proof.lean ====
/-
  A two-layer graph convolution with a log-softmax head: the kernel program against its reference.

  Both programs compute, from node features x [100000, 512], an edge list [2, 1600000], two weight matrices and two
  biases: the edge lists with one self loop per node, the degree of each target, the symmetric normalization weight of
  each edge; then twice "multiply by a weight matrix, gather rows by source, scale by the edge weight, scatter-add by
  target, add the bias", with a rectifier after the first layer and a row-wise log-softmax after the second.
  The kernel program runs the two matrix products, the bias-and-rectifier and the bias-and-log-softmax as four kernel
  regions over blocks of 5000 rows; everything else is the same host operations in both programs.
  At the exact values a product written 5000 rows at a time is the whole product (each entry is one sum over the
  contracted axis, and rounding the operands to a narrower format is the identity), the bias row [1, n] broadcast over
  the rows is the bias broadcast over the array, the rectifier is max with zero in both, and the log-softmax of a block of
  rows is the log-softmax of those rows (the reference's extra maximum against minus infinity changes nothing). So both
  results are one function of the six argument arrays, entry by entry, with no use of the inputs' finiteness.
  The idealization rewrote no operation, so the kernel's idealization claim is empty.
-/
import proofs.«102561_j3453153706769_1_alg».proof.Defs
import proofs.«102561_j3453153706769_1_alg».proof.Proof.Gen.Kernel
import proofs.«102561_j3453153706769_1_alg».proof.Proof.Gen.Kernel.Frame
import proofs.«102561_j3453153706769_1_alg».proof.Proof.Gen.KernelIdeal
import proofs.«102561_j3453153706769_1_alg».proof.Proof.Gen.KernelIdeal.Frame
import proofs.«102561_j3453153706769_1_alg».proof.Proof.Gen.ReferenceIdeal
import proofs.«102561_j3453153706769_1_alg».proof.Proof.Gen.Pre_finite_inputs
import proofs.«102561_j3453153706769_1_alg».proof.Proof.RunOut
import proofs.«102561_j3453153706769_1_alg».proof.Proof.Fold
import proofs.«102561_j3453153706769_1_alg».proof.Proof.RefRun
import Idealize.ShloMosaic.Adequacy
import Idealize.ShloMosaic.Init

noncomputable section

namespace Cert.Proof

open Idealize.ShloMosaic Idealize.ShloMosaic.TcCoe Idealize.SL.Sem

/-- The kernel program as printed runs, its arguments unchanged. -/
theorem frame_k : Cert.frame_Kernel := fun m ρ _ => Cert.Kernel.Gen.frame m ρ
/-- The idealized kernel program runs, its arguments unchanged. -/
theorem frame_ki : Cert.frame_KernelIdeal := fun m ρ _ => Cert.KernelIdeal.Gen.frame m ρ
/-- The idealized reference runs, its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten. -/
theorem preserves : Cert.preserves_Kernel_KernelIdeal := trivial

/-- Both runs end with the result at the reference's last stage of the argument arrays. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩) (Cert.KernelIdeal.RunOut.run_out m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
